-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x1024 : Shape := ⟨3, ![128, 1024, 1024]⟩
abbrev S128x1024 : Shape := ⟨2, ![128, 1024]⟩
abbrev S_ : Shape := ⟨0, ![]⟩

class Facts : Prop where
  bcast_S_S128x1024x1024 : S_.BroadcastsInDim S128x1024x1024 (![] : Fin 0 → Fin S128x1024x1024.rank)
  reducesTo_S128x1024x1024_S_d0_1_2 : S128x1024x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn {F : FTy → Type} [FloatOps F] (main_arg0 : FVec F S128x1024x1024 .f32) (main_arg1 : FVec F S128x1024 .f32) : IVec S_ 1 :=
  let main_v0 : FVec F S128x1024x1024 .f32 := Host.absf main_arg0
  let main_cst : FVec F S_ .f32 := constant S_ .f32 0x7F800000#32
  let main_v1 : FVec F S128x1024x1024 .f32 := broadcastInDim S128x1024x1024 ![] bcast_S_S128x1024x1024 main_cst
  let main_v2 : IVec S128x1024x1024 1 := cmpf .olt main_v0 main_v1
  let main_c : IVec S_ 1 := constantI S_ 1 1#1
  let main_v3 : IVec S_ 1 := (fun x v => Host.reduce IntOp.andi x v reducesTo_S128x1024x1024_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  main_v8
-- ==== Kernel.lean ====
abbrev S128x1024x1024 : Shape := ⟨3, ![128, 1024, 1024]⟩
abbrev S128x1024 : Shape := ⟨2, ![128, 1024]⟩
abbrev S128x1x1024 : Shape := ⟨3, ![128, 1, 1024]⟩
abbrev S2x1024x1024 : Shape := ⟨3, ![2, 1024, 1024]⟩
abbrev S2x1x1024 : Shape := ⟨3, ![2, 1, 1024]⟩
abbrev S1x1x1024 : Shape := ⟨3, ![1, 1, 1024]⟩
abbrev S1x1024 : Shape := ⟨2, ![1, 1024]⟩
abbrev S1x1024x1024 : Shape := ⟨3, ![1, 1024, 1024]⟩
abbrev S1024x1024 : Shape := ⟨2, ![1024, 1024]⟩
abbrev S256x1024 : Shape := ⟨2, ![256, 1024]⟩
abbrev S1x256 : Shape := ⟨2, ![1, 256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S128x1024x1024, .f32⟩
  | .hbm, ⟨1, _⟩ => ⟨S128x1024, .f32⟩
  | .hbm, ⟨2, _⟩ => ⟨S128x1x1024, .f32⟩
  | .hbm, ⟨3, _⟩ => ⟨S128x1024x1024, .f32⟩
  | .local _ .vmem, ⟨0, _⟩ => ⟨S2x1024x1024, .f32⟩
  | .local _ .vmem, ⟨1, _⟩ => ⟨S2x1024x1024, .f32⟩
  | .local _ .vmem, ⟨2, _⟩ => ⟨S2x1x1024, .f32⟩
  | .local _ .vmem, ⟨3, _⟩ => ⟨S2x1x1024, .f32⟩
  | .local _ .vmem, ⟨4, _⟩ => ⟨S2x1024x1024, .f32⟩
  | .local _ .vmem, ⟨5, _⟩ => ⟨S2x1024x1024, .f32⟩
  | _, _ => ⟨S128x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def k0_mult1 : BitVec 32 :=
  let c0_i32_4 : BitVec 32 := 0#32
  let c256_i32 : BitVec 32 := 256#32
  let v2 : BitVec 32 := Scalar.muli c0_i32_4 c256_i32
  v2
def k0_off1 (c0_i32_4 : BitVec 32) : Fin 2 → Nat :=
  let c256_i32 : BitVec 32 := 256#32
  let v2 : BitVec 32 := Scalar.muli c0_i32_4 c256_i32
  let v3 : BitVec 32 := v2
  let v6 : Index := Scalar.indexCast v3
  let c0_7 : Index := 0#32
  ![v6.toNat, 0]
def k0_off2 (c0_i32_4 : BitVec 32) : Fin 2 → Nat :=
  let c0_10 : Index := 0#32
  let c256_i32 : BitVec 32 := 256#32
  let v2 : BitVec 32 := Scalar.muli c0_i32_4 c256_i32
  let v3 : BitVec 32 := v2
  let v10 : Index := Scalar.indexCast v3
  ![0, v10.toNat]
def k0_mult2 : BitVec 32 :=
  let c1_i32 : BitVec 32 := 1#32
  let c256_i32_15 : BitVec 32 := 256#32
  let v26 : BitVec 32 := Scalar.muli c1_i32 c256_i32_15
  v26
def k0_mult3 : BitVec 32 :=
  let c2_i32 : BitVec 32 := 2#32
  let c256_i32_27 : BitVec 32 := 256#32
  let v50 : BitVec 32 := Scalar.muli c2_i32 c256_i32_27
  v50
def k0_mult4 : BitVec 32 :=
  let c3_i32 : BitVec 32 := 3#32
  let c256_i32_39 : BitVec 32 := 256#32
  let v74 : BitVec 32 := Scalar.muli c3_i32 c256_i32_39
  v74
def k0_mult5 : BitVec 32 :=
  let c0_i32_56 : BitVec 32 := 0#32
  let c256_i32_57 : BitVec 32 := 256#32
  let v100 : BitVec 32 := Scalar.muli c0_i32_56 c256_i32_57
  v100
def k0_mult6 : BitVec 32 :=
  let c1_i32_69 : BitVec 32 := 1#32
  let c256_i32_70 : BitVec 32 := 256#32
  let v124 : BitVec 32 := Scalar.muli c1_i32_69 c256_i32_70
  v124
def k0_mult7 : BitVec 32 :=
  let c2_i32_82 : BitVec 32 := 2#32
  let c256_i32_83 : BitVec 32 := 256#32
  let v148 : BitVec 32 := Scalar.muli c2_i32_82 c256_i32_83
  v148
def k0_mult8 : BitVec 32 :=
  let c3_i32_95 : BitVec 32 := 3#32
  let c256_i32_96 : BitVec 32 := 256#32
  let v172 : BitVec 32 := Scalar.muli c3_i32_95 c256_i32_96
  v172
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128x1024_S128x1x1024 : S128x1024.ShapeCasts S128x1x1024
  inb_S2x1x1024_S1x1x1024_0_0_0 : ∀ a, (![0, 0, 0] : Fin 3 → Nat) a + S1x1x1024.size a ≤ S2x1x1024.size a
  h_S1x1x1024 : 0 < S1x1x1024.numel
  shapeCasts_S1x1x1024_S1x1024 : S1x1x1024.ShapeCasts S1x1024
  inb_S2x1024x1024_S1x1024x1024_0_0_0 : ∀ a, (![0, 0, 0] : Fin 3 → Nat) a + S1x1024x1024.size a ≤ S2x1024x1024.size a
  squeezes_S1x1024x1024_S1024x1024 : S1x1024x1024.Squeezes S1024x1024
  h_S256x1024 : 0 < S256x1024.numel
  squeezes_S1x1x1024_S1x1024 : S1x1x1024.Squeezes S1x1024
  h_S1x256 : 0 < S1x256.numel
  shapeCasts_S1x256_S1x256 : S1x256.ShapeCasts S1x256
  transposes_S1x256_p1_0_S256x1 : S1x256.Transposes [1, 0] S256x1
  broadcasts_S256x1_S256x1024 : S256x1.Broadcasts S256x1024
  broadcasts_S1x1024_S256x1024 : S1x1024.Broadcasts S256x1024
  inb_S2x1x1024_S1x1x1024_1_0_0 : ∀ a, (![1, 0, 0] : Fin 3 → Nat) a + S1x1x1024.size a ≤ S2x1x1024.size a
  inb_S2x1024x1024_S1x1024x1024_1_0_0 : ∀ a, (![1, 0, 0] : Fin 3 → Nat) a + S1x1024x1024.size a ≤ S2x1024x1024.size a
  hrank0 : 0 < grid0.rank
  k0_mult1_dvd : 256 ∣ k0_mult1.toNat
  k0_off1_inb : ∀ (r : Fin 4), ∀ a, (k0_off1 (BitVec.ofNat 32 r.val)) a + S256x1024.size a ≤ S1024x1024.size a
  k0_off2_inb : ∀ (r : Fin 4), ∀ a, (k0_off2 (BitVec.ofNat 32 r.val)) a + S1x256.size a ≤ S1x1024.size a
  k0_mult2_dvd : 256 ∣ k0_mult2.toNat
  k0_mult3_dvd : 256 ∣ k0_mult3.toNat
  k0_mult4_dvd : 256 ∣ k0_mult4.toNat
  k0_mult5_dvd : 256 ∣ k0_mult5.toNat
  k0_mult6_dvd : 256 ∣ k0_mult6.toNat
  k0_mult7_dvd : 256 ∣ k0_mult7.toNat
  k0_mult8_dvd : 256 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S128x1024x1024.size a
  hwx0_0 : ∀ i : grid0.Coords, EltTy.bits .f32 = 32 ∨ (Rect.block (s := S128x1024x1024) S2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x1024.size a ≤ S128x1x1024.size a
  hwx0_1 : ∀ i : grid0.Coords, EltTy.bits .f32 = 32 ∨ (Rect.block (s := S128x1x1024) S2x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x1024.size a ≤ S128x1024x1024.size a
  hwx0_2 : ∀ i : grid0.Coords, EltTy.bits .f32 = 32 ∨ (Rect.block (s := S128x1024x1024) S2x1024x1024.size (cc0_transform_2 i) (hinb0_2 i)).WholeWords (EltTy.packing .f32)

variable [Facts₀]

abbrev win0_0 : Pipeline.Window sig grid0 :=
  Pipeline.Window.ofSpec (Memref.whole main_arg0) S2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S128x1024x1024 : Shape := ⟨3, ![128, 1024, 1024]⟩
abbrev S128x1024 : Shape := ⟨2, ![128, 1024]⟩
abbrev S_ : Shape := ⟨0, ![]⟩
abbrev S128x1024x1 : Shape := ⟨3, ![128, 1024, 1]⟩
abbrev S128x1x1024 : Shape := ⟨3, ![128, 1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S128x1024x1024, .f32⟩
  | .hbm, ⟨1, _⟩ => ⟨S128x1024, .f32⟩
  | .hbm, ⟨2, _⟩ => ⟨S_, .f32⟩
  | .hbm, ⟨3, _⟩ => ⟨S128x1024x1024, .f32⟩
  | .hbm, ⟨4, _⟩ => ⟨S128x1024x1024, .f32⟩
  | .hbm, ⟨5, _⟩ => ⟨S128x1024x1, .f32⟩
  | .hbm, ⟨6, _⟩ => ⟨S128x1x1024, .f32⟩
  | .hbm, ⟨7, _⟩ => ⟨S128x1024x1024, .f32⟩
  | .hbm, ⟨8, _⟩ => ⟨S128x1024x1024, .f32⟩
  | .hbm, ⟨9, _⟩ => ⟨S128x1024x1024, .f32⟩
  | .hbm, ⟨10, _⟩ => ⟨S_, .f32⟩
  | .hbm, ⟨11, _⟩ => ⟨S128x1024x1024, .f32⟩
  | .hbm, ⟨12, _⟩ => ⟨S128x1024x1024, .f32⟩
  | .hbm, ⟨13, _⟩ => ⟨S128x1024x1024, .f32⟩
  | _, _ => ⟨S128x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S_S128x1024x1024 : S_.BroadcastsInDim S128x1024x1024 (![] : Fin 0 → Fin S128x1024x1024.rank)
  bcast_S128x1024_S128x1024x1_0_1 : S128x1024.BroadcastsInDim S128x1024x1 (![0, 1] : Fin 2 → Fin S128x1024x1.rank)
  bcast_S128x1024_S128x1x1024_0_2 : S128x1024.BroadcastsInDim S128x1x1024 (![0, 2] : Fin 2 → Fin S128x1x1024.rank)
  bcast_S128x1024x1_S128x1024x1024_0_1_2 : S128x1024x1.BroadcastsInDim S128x1024x1024 (![0, 1, 2] : Fin 3 → Fin S128x1024x1024.rank)
  bcast_S128x1x1024_S128x1024x1024_0_1_2 : S128x1x1024.BroadcastsInDim S128x1024x1024 (![0, 1, 2] : Fin 3 → Fin S128x1024x1024.rank)

variable [Facts₀]

class Facts : Prop extends Facts₀ where

variable [Facts]
-- ==== Proof.BitsBands.lean ====
/-
  Where the body's accesses fall in a staging buffer of two 1024×1024 matrices.

  The body reaches matrix `b` of a staging buffer through a one-matrix slice with the leading unit axis
  dropped, and reads or writes 256 rows of it at a time. Element `(p, q)` of the 256-row band starting at
  row `o` of matrix `b` is element `(b, o + p, q)` of the buffer (`band_emb`); hence a write of such a band is
  seen at `(b', r, c)` exactly when `b' = b` and `o ≤ r < o + 256` (`read_write_band_hit`, `read_write_band_miss`),
  and a load of such a band reads the buffer at those elements (`readAt_band`). The same for the vector
  buffer [2, 1, 1024]: its row `b` (`readAt_row`) and 256 consecutive entries of it (`readAt_seg`).
-/
import proofs.«102524_j25838523253087_2_alg».proof.Proof.Gen.Kernel
import Idealize.ShloMosaic.Lib.ValueIdx
import Idealize.ShloMosaic.Lib.ValueLayout
import Idealize.ShloMosaic.Lib.Pipeline.Value

noncomputable section

namespace Cert.Kernel.Hand

open Idealize.ShloMosaic Idealize.ShloMosaic.TcCoe Idealize.ShloMosaic.ValueIdx
open Cert.Kernel

variable {F : FTy → Type} [FloatOps F]

/-- Element `(p, q)` of the band of 256 rows from row `o` of matrix `b`, as an index of the two-matrix buffer. -/
def bandIx (b o : ℕ) (hb : b < 2) (ho : o + 256 ≤ 1024) (y : S256x1024.Idx) : S2x1024x1024.Idx :=
  ix3 (⟨b, hb⟩ : Fin 2) (⟨o + (y 0).val, by have := idx2_lt0 y; omega⟩ : Fin 1024) (⟨(y 1).val, idx2_lt1 y⟩ : Fin 1024)

/-- The view a band access goes through places element `(p, q)` at element `(b, o + p, q)` of the buffer. -/
theorem band_emb (M : Memref sig .tc .vmem S2x1024x1024 .f32) (b o : ℕ) (hb : b < 2) (ho : o + 256 ≤ 1024)
    (hR : ∀ a, (![b, 0, 0] : Fin 3 → ℕ) a + S1x1024x1024.size a ≤ S2x1024x1024.size a) (hs) (hq : S1x1024x1024.Squeezes S1024x1024)
    (hr : ∀ a, (![o, 0] : Fin 2 → ℕ) a + S256x1024.size a ≤ S1024x1024.size a) (y : S256x1024.Idx) :
    (((M.slice (Rect.unit (s := S2x1024x1024) ![b, 0, 0] S1x1024x1024.size hR) hs).squeeze S1024x1024 hq).access
        (Rect.unit (s := S1024x1024) ![o, 0] S256x1024.size hr)).emb y
      = M.view.emb (bandIx b o hb ho y) := by
  show M.view.emb ((Rect.unit (s := S2x1024x1024) ![b, 0, 0] S1x1024x1024.size hR).emb
      (Shape.reshapeEquiv _ ((Rect.unit (s := S1024x1024) ![o, 0] S256x1024.size hr).emb y))) = _
  refine congrArg M.view.emb ?_
  have e1 : (Rect.unit (s := S1024x1024) ![o, 0] S256x1024.size hr).emb y
      = ix2 (⟨o + (y 0).val, by have := idx2_lt0 y; omega⟩ : Fin 1024) (⟨(y 1).val, idx2_lt1 y⟩ : Fin 1024) :=
    funext fun d => Fin.ext (by
      match d with
      | ⟨0, _⟩ => show o + 1 * (y 0).val = o + (y 0).val; omega
      | ⟨1, _⟩ => show 0 + 1 * (y 1).val = (y 1).val; omega)
  rw [e1, reshapeEquiv_ix2_1ab]
  funext d
  refine Fin.ext ?_
  match d with
  | ⟨0, _⟩ => show b + 1 * 0 = b; omega
  | ⟨1, _⟩ => show 0 + 1 * (o + (y 0).val) = o + (y 0).val; omega
  | ⟨2, _⟩ => show 0 + 1 * (y 1).val = (y 1).val; omega

/-- A band written through its view is read back through the buffer, at an element of the band, as the payload there. -/
theorem read_write_band_hit (M : Memref sig .tc .vmem S2x1024x1024 .f32) (b o : ℕ) (hb : b < 2) (ho : o + 256 ≤ 1024)
    (hR : ∀ a, (![b, 0, 0] : Fin 3 → ℕ) a + S1x1024x1024.size a ≤ S2x1024x1024.size a) (hs) (hq : S1x1024x1024.Squeezes S1024x1024)
    (hr : ∀ a, (![o, 0] : Fin 2 → ℕ) a + S256x1024.size a ≤ S1024x1024.size a)
    (f : M.view.ty.Contents (Elt F)) (w : S256x1024.Idx → Elt F .f32) (b' : Fin 2) (r c : Fin 1024)
    (h0 : b'.val = b) (hlo : o ≤ r.val) (hhi : r.val < o + 256) :
    M.view.read (Elt F) (View.write (Elt F)
        (((M.slice (Rect.unit (s := S2x1024x1024) ![b, 0, 0] S1x1024x1024.size hR) hs).squeeze S1024x1024 hq).access
          (Rect.unit (s := S1024x1024) ![o, 0] S256x1024.size hr)) f w Finset.univ) (ix3 b' r c)
      = w (ix2 (⟨r.val - o, by omega⟩ : Fin 256) c) := by
  have e : M.view.emb (ix3 b' r c)
      = (((M.slice (Rect.unit (s := S2x1024x1024) ![b, 0, 0] S1x1024x1024.size hR) hs).squeeze S1024x1024 hq).access
          (Rect.unit (s := S1024x1024) ![o, 0] S256x1024.size hr)).emb (ix2 (⟨r.val - o, by omega⟩ : Fin 256) c) := by
    rw [band_emb M b o hb ho hR hs hq hr]
    refine congrArg M.view.emb (funext fun d => Fin.ext ?_)
    match d with
    | ⟨0, _⟩ => exact h0
    | ⟨1, _⟩ => show r.val = o + (r.val - o); omega
    | ⟨2, _⟩ => rfl
  rw [View.read_apply, e, View.write_emb_of_mem _ _ (Finset.mem_univ _), cast_cast, cast_eq]

/-- and at an element outside the band, as what was there before. -/
theorem read_write_band_miss (M : Memref sig .tc .vmem S2x1024x1024 .f32) (b o : ℕ) (hb : b < 2) (ho : o + 256 ≤ 1024)
    (hR : ∀ a, (![b, 0, 0] : Fin 3 → ℕ) a + S1x1024x1024.size a ≤ S2x1024x1024.size a) (hs) (hq : S1x1024x1024.Squeezes S1024x1024)
    (hr : ∀ a, (![o, 0] : Fin 2 → ℕ) a + S256x1024.size a ≤ S1024x1024.size a)
    (f : M.view.ty.Contents (Elt F)) (w : S256x1024.Idx → Elt F .f32) (b' : Fin 2) (r c : Fin 1024)
    (h : b'.val ≠ b ∨ r.val < o ∨ o + 256 ≤ r.val) :
    M.view.read (Elt F) (View.write (Elt F)
        (((M.slice (Rect.unit (s := S2x1024x1024) ![b, 0, 0] S1x1024x1024.size hR) hs).squeeze S1024x1024 hq).access
          (Rect.unit (s := S1024x1024) ![o, 0] S256x1024.size hr)) f w Finset.univ) (ix3 b' r c)
      = M.view.read (Elt F) f (ix3 b' r c) := by
  rw [View.read_apply, View.read_apply, View.write_of_not_mem]
  intro hmem
  obtain ⟨y, -, hy⟩ := Finset.mem_map.mp hmem
  rw [band_emb M b o hb ho hR hs hq hr] at hy
  have hj := M.view.emb.injective hy
  have h0 : b = b'.val := congrArg (fun j : S2x1024x1024.Idx => (j 0).val) hj
  have h1 : o + (y 0).val = r.val := congrArg (fun j : S2x1024x1024.Idx => (j 1).val) hj
  have := idx2_lt0 y
  omega

/-- A load of a band reads the buffer at the band's elements. -/
theorem readAt_band (M : Memref sig .tc .vmem S2x1024x1024 .f32) (b o : ℕ) (hb : b < 2) (ho : o + 256 ≤ 1024)
    (hR : ∀ a, (![b, 0, 0] : Fin 3 → ℕ) a + S1x1024x1024.size a ≤ S2x1024x1024.size a) (hs) (hq : S1x1024x1024.Squeezes S1024x1024)
    (hr : ∀ a, (![o, 0] : Fin 2 → ℕ) a + S256x1024.size a ≤ S1024x1024.size a)
    (f : M.view.ty.Contents (Elt F)) (y : S256x1024.Idx) :
    View.readAt (Elt F) ((M.slice (Rect.unit (s := S2x1024x1024) ![b, 0, 0] S1x1024x1024.size hR) hs).squeeze S1024x1024 hq).view
        (Rect.unit (s := S1024x1024) ![o, 0] S256x1024.size hr).toLoadRect f y
      = M.view.read (Elt F) f (bandIx b o hb ho y) := by
  show View.read (Elt F) (((M.slice (Rect.unit (s := S2x1024x1024) ![b, 0, 0] S1x1024x1024.size hR) hs).squeeze S1024x1024 hq).access
        (Rect.unit (s := S1024x1024) ![o, 0] S256x1024.size hr)) f y = _
  rw [View.read_apply, band_emb M b o hb ho hR hs hq hr, View.read_apply]

/-- A load of row `b` of the vector buffer reads it at `(b, 0, q)`. -/
theorem readAt_row (M : Memref sig .tc .vmem S2x1x1024 .f32) (b : ℕ) (hb : b < 2)
    (hR : ∀ a, (![b, 0, 0] : Fin 3 → ℕ) a + S1x1x1024.size a ≤ S2x1x1024.size a)
    (f : M.view.ty.Contents (Elt F)) (y : S1x1x1024.Idx) :
    View.readAt (Elt F) M.view (Rect.unit (s := S2x1x1024) ![b, 0, 0] S1x1x1024.size hR).toLoadRect f y
      = M.view.read (Elt F) f (ix3 (⟨b, hb⟩ : Fin 2) (0 : Fin 1) (⟨(y 2).val, (y 2).isLt⟩ : Fin 1024)) := by
  rw [View.readAt_apply]
  refine congrArg (M.view.read (Elt F) f) (funext fun d => Fin.ext ?_)
  match d with
  | ⟨0, _⟩ => show b + 1 * (y 0).val = b; have := (y 0).isLt; have : (y 0).val < 1 := this; omega
  | ⟨1, _⟩ => show 0 + 1 * (y 1).val = 0; have := (y 1).isLt; have : (y 1).val < 1 := this; omega
  | ⟨2, _⟩ => show 0 + 1 * (y 2).val = (y 2).val; omega

/-- A load of 256 entries from entry `o` of row `b` of the vector buffer reads it at `(b, 0, o + p)`. -/
theorem readAt_seg (M : Memref sig .tc .vmem S2x1x1024 .f32) (b o : ℕ) (hb : b < 2) (ho : o + 256 ≤ 1024)
    (hR : ∀ a, (![b, 0, 0] : Fin 3 → ℕ) a + S1x1x1024.size a ≤ S2x1x1024.size a) (hs) (hq : S1x1x1024.Squeezes S1x1024)
    (hr : ∀ a, (![0, o] : Fin 2 → ℕ) a + S1x256.size a ≤ S1x1024.size a)
    (f : M.view.ty.Contents (Elt F)) (y : S1x256.Idx) :
    View.readAt (Elt F) ((M.slice (Rect.unit (s := S2x1x1024) ![b, 0, 0] S1x1x1024.size hR) hs).squeeze S1x1024 hq).view
        (Rect.unit (s := S1x1024) ![0, o] S1x256.size hr).toLoadRect f y
      = M.view.read (Elt F) f (ix3 (⟨b, hb⟩ : Fin 2) (0 : Fin 1) (⟨o + (y 1).val, by have := idx2_lt1 y; omega⟩ : Fin 1024)) := by
  show _root_.cast _ (f (M.view.emb ((Rect.unit (s := S2x1x1024) ![b, 0, 0] S1x1x1024.size hR).emb
      (Shape.reshapeEquiv _ ((Rect.unit (s := S1x1024) ![0, o] S1x256.size hr).emb y))))) = _
  rw [View.read_apply]
  have e1 : (Rect.unit (s := S1x1024) ![0, o] S1x256.size hr).emb y
      = ix2 (0 : Fin 1) (⟨o + (y 1).val, by have := idx2_lt1 y; omega⟩ : Fin 1024) :=
    funext fun d => Fin.ext (by
      match d with
      | ⟨0, _⟩ => show 0 + 1 * (y 0).val = 0; have := idx2_lt0 y; omega
      | ⟨1, _⟩ => show o + 1 * (y 1).val = o + (y 1).val; omega)
  rw [e1, reshapeEquiv_ix2_1ab]
  have e2 : (Rect.unit (s := S2x1x1024) ![b, 0, 0] S1x1x1024.size hR).emb
        (ix3 (⟨0, Nat.one_pos⟩ : Fin 1) (0 : Fin 1) (⟨o + (y 1).val, by have := idx2_lt1 y; omega⟩ : Fin 1024))
      = ix3 (⟨b, hb⟩ : Fin 2) (0 : Fin 1) (⟨o + (y 1).val, by have := idx2_lt1 y; omega⟩ : Fin 1024) :=
    funext fun d => Fin.ext (by
      match d with
      | ⟨0, _⟩ => show b + 1 * 0 = b; omega
      | ⟨1, _⟩ => show 0 + 1 * 0 = 0; omega
      | ⟨2, _⟩ => show 0 + 1 * (o + (y 1).val) = o + (y 1).val; omega)
  rw [e2]

/-! The same three with the two range facts read off the rectangles' own in-bounds evidence. -/

theorem read_write_band_hit' (M : Memref sig .tc .vmem S2x1024x1024 .f32) (b o : ℕ)
    (hR : ∀ a, (![b, 0, 0] : Fin 3 → ℕ) a + S1x1024x1024.size a ≤ S2x1024x1024.size a) (hs) (hq : S1x1024x1024.Squeezes S1024x1024)
    (hr : ∀ a, (![o, 0] : Fin 2 → ℕ) a + S256x1024.size a ≤ S1024x1024.size a)
    (f : M.view.ty.Contents (Elt F)) (w : S256x1024.Idx → Elt F .f32) (b' : Fin 2) (r c : Fin 1024)
    (h0 : b'.val = b) (hlo : o ≤ r.val) (hhi : r.val < o + 256) :
    M.view.read (Elt F) (View.write (Elt F)
        (((M.slice (Rect.unit (s := S2x1024x1024) ![b, 0, 0] S1x1024x1024.size hR) hs).squeeze S1024x1024 hq).access
          (Rect.unit (s := S1024x1024) ![o, 0] S256x1024.size hr)) f w Finset.univ) (ix3 b' r c)
      = w (ix2 (⟨r.val - o, by omega⟩ : Fin 256) c) :=
  read_write_band_hit M b o (hR 0) (hr 0) hR hs hq hr f w b' r c h0 hlo hhi

theorem read_write_band_miss' (M : Memref sig .tc .vmem S2x1024x1024 .f32) (b o : ℕ)
    (hR : ∀ a, (![b, 0, 0] : Fin 3 → ℕ) a + S1x1024x1024.size a ≤ S2x1024x1024.size a) (hs) (hq : S1x1024x1024.Squeezes S1024x1024)
    (hr : ∀ a, (![o, 0] : Fin 2 → ℕ) a + S256x1024.size a ≤ S1024x1024.size a)
    (f : M.view.ty.Contents (Elt F)) (w : S256x1024.Idx → Elt F .f32) (b' : Fin 2) (r c : Fin 1024)
    (h : b'.val ≠ b ∨ r.val < o ∨ o + 256 ≤ r.val) :
    M.view.read (Elt F) (View.write (Elt F)
        (((M.slice (Rect.unit (s := S2x1024x1024) ![b, 0, 0] S1x1024x1024.size hR) hs).squeeze S1024x1024 hq).access
          (Rect.unit (s := S1024x1024) ![o, 0] S256x1024.size hr)) f w Finset.univ) (ix3 b' r c)
      = M.view.read (Elt F) f (ix3 b' r c) :=
  read_write_band_miss M b o (hR 0) (hr 0) hR hs hq hr f w b' r c h

end Cert.Kernel.Hand

end
-- ==== Proof.Spec.lean ====
/-
  The result, element by element.

  For an array `A` of 128 matrices [1024, 1024] and an array `h` of 128 vectors [1024], both programs compute
  `A[n,r,c]·0.95 + (h[n,r]·h[n,c])·0.5` at every `(n, r, c)`: the matrix scaled, plus half the outer product of the
  vector with itself, with the same two float constants and the same order of operations. `elt` is that expression
  of the three numbers it reads; `whole A h` is the array of them.
-/
import Idealize.ShloMosaic.Lib.ValueIdx
import Idealize.ShloMosaic.PureOps.Ideal

noncomputable section

namespace Cert.Spec

open Idealize.ShloMosaic Idealize.ShloMosaic.ValueIdx

variable {F : FTy → Type} [FloatOps F]

/-- One element of the result from the three numbers it depends on: `a·0.95 + (g·h)·0.5`. -/
def elt (a g h : F .f32) : F .f32 :=
  FloatOps.addf (FloatOps.mulf a (FloatOps.ofBits .f32 0x3F733333#32))
    (FloatOps.mulf (FloatOps.mulf g h) (FloatOps.ofBits .f32 0x3F000000#32))

/-- The whole result from the two argument arrays. -/
def whole (A : (⟨3, ![128, 1024, 1024]⟩ : Shape).Idx → F .f32) (h : (⟨2, ![128, 1024]⟩ : Shape).Idx → F .f32) :
    (⟨3, ![128, 1024, 1024]⟩ : Shape).Idx → F .f32 :=
  fun i => elt (A i) (h (ix2 (⟨(i 0).val, (i 0).isLt⟩ : Fin 128) (⟨(i 1).val, (i 1).isLt⟩ : Fin 1024)))
    (h (ix2 (⟨(i 0).val, (i 0).isLt⟩ : Fin 128) (⟨(i 2).val, (i 2).isLt⟩ : Fin 1024)))

theorem whole_apply (A : (⟨3, ![128, 1024, 1024]⟩ : Shape).Idx → F .f32) (h : (⟨2, ![128, 1024]⟩ : Shape).Idx → F .f32)
    (n : Fin 128) (r c : Fin 1024) : whole A h (ix3 n r c) = elt (A (ix3 n r c)) (h (ix2 n r)) (h (ix2 n c)) := rfl

end Cert.Spec

end
-- ==== Proof.BitsPayload.lean ====
/-
  What one band of the output holds, element by element.

  Every store of the body writes, into 256 rows of one output matrix, the same expression of three loads:
  the band `a` of the input matrix, the row `h` of the vector and the 256 entries `g` of that row that face
  the band. At element `(p, q)` of the band it is `a[p,q]·0.95 + (g[p]·h[q])·0.5` (`pay3_apply`): the entries
  `g`, a [1,256] row, are turned into a column and spread along the rows, the row `h` is spread down
  the columns. Read through the staging buffers the three loads come from, the band starting at row `o`
  of matrix `b` therefore holds, at row `r` and column `c` of that matrix,
  `A[b,r,c]·0.95 + (h[b,r]·h[b,c])·0.5` (`band_value`), which is `block A h` at `(b, r, c)`.
-/
import proofs.«102524_j25838523253087_2_alg».proof.Proof.Gen.Kernel.Skeleton
import proofs.«102524_j25838523253087_2_alg».proof.Proof.BitsBands
import proofs.«102524_j25838523253087_2_alg».proof.Proof.Spec

noncomputable section

namespace Cert.Kernel.Hand

open Idealize.ShloMosaic Idealize.ShloMosaic.TcCoe Idealize.ShloMosaic.ValueIdx
open Cert.Kernel Cert.Kernel.Gen Cert.Spec

variable {F : FTy → Type} [FloatOps F]

/-- The block of two result matrices from the block `X0` of two input matrices and the block `X1` of two vectors. -/
def block (X0 : Vec F S2x1024x1024 .f32) (X1 : Vec F S2x1x1024 .f32) : Vec F S2x1024x1024 .f32 :=
  fun j => elt (X0 j) (X1 (ix3 (⟨(j 0).val, (j 0).isLt⟩ : Fin 2) (0 : Fin 1) (⟨(j 1).val, (j 1).isLt⟩ : Fin 1024)))
    (X1 (ix3 (⟨(j 0).val, (j 0).isLt⟩ : Fin 2) (0 : Fin 1) (⟨(j 2).val, (j 2).isLt⟩ : Fin 1024)))

theorem block_apply (X0 : Vec F S2x1024x1024 .f32) (X1 : Vec F S2x1x1024 .f32) (b : Fin 2) (r c : Fin 1024) :
    block X0 X1 (ix3 b r c) = elt (X0 (ix3 b r c)) (X1 (ix3 b (0 : Fin 1) r)) (X1 (ix3 b (0 : Fin 1) c)) := rfl

section Spread
variable {α : Type}

/-- A [256,1] column spread to [256,1024] reads, at `(p, q)`, the column at `p`. -/
theorem spreadCol_apply (v : S256x1.Idx → α) (h : S256x1.Broadcasts S256x1024) (p : Fin 256) (q : Fin 1024) :
    broadcastTo S256x1024 v h (ix2 p q) = v (ix2 p (0 : Fin 1)) := by
  refine broadcastTo_apply v h (ix2 p q) (ix2 p (0 : Fin 1)) fun ax => ?_
  match ax with
  | ⟨0, _⟩ =>
    show p.val = if (256 : ℕ) = 1 then 0 else p.val
    rw [if_neg (by decide)]
  | ⟨1, _⟩ =>
    show (0 : ℕ) = if (1 : ℕ) = 1 then 0 else q.val
    rw [if_pos rfl]

end Spread

variable [Facts]
open Facts₀ Facts

/-- The stored expression at element `(p, q)` of its band. -/
theorem pay3_apply (v0 : Vec F S1x1x1024 .f32) (a : Vec F S256x1024 .f32) (g : Vec F S1x256 .f32) (p : Fin 256) (q : Fin 1024) :
    k0_pay3 v0 a g (ix2 p q) = elt (a (ix2 p q)) (g (ix2 (0 : Fin 1) p)) (v0 (ix3 (0 : Fin 1) (0 : Fin 1) q)) := by
  have e1 : broadcastTo S256x1024 (transpose S256x1 [1, 0] (shapeCast S1x256 g Facts₀.shapeCasts_S1x256_S1x256) Facts₀.transposes_S1x256_p1_0_S256x1)
      Facts₀.broadcasts_S256x1_S256x1024 (ix2 p q) = g (ix2 (0 : Fin 1) p) :=
    (spreadCol_apply _ _ p q).trans ((transpose_ix2_apply _ _ p (0 : Fin 1)).trans
      (congrFun (shapeCast_self g Facts₀.shapeCasts_S1x256_S1x256) _))
  have e2 : broadcastTo S256x1024 (k0_pay2 v0) Facts₀.broadcasts_S1x1024_S256x1024 (ix2 p q) = v0 (ix3 (0 : Fin 1) (0 : Fin 1) q) :=
    (broadcastTo_1b_ab_apply _ _ p q).trans (shapeCast_1ab_ab_apply v0 Facts₀.shapeCasts_S1x1x1024_S1x1024 (0 : Fin 1) q)
  show FloatOps.addf (FloatOps.mulf (a (ix2 p q)) _) (FloatOps.mulf (FloatOps.mulf
      (broadcastTo S256x1024 (transpose S256x1 [1, 0] (shapeCast S1x256 g Facts₀.shapeCasts_S1x256_S1x256) Facts₀.transposes_S1x256_p1_0_S256x1)
        Facts₀.broadcasts_S256x1_S256x1024 (ix2 p q))
      (broadcastTo S256x1024 (k0_pay2 v0) Facts₀.broadcasts_S1x1024_S256x1024 (ix2 p q))) _) = _
  rw [e1, e2]
  rfl

/-- The other seven stores write the same expression. -/
theorem pay4_eq (v0 : Vec F S1x1x1024 .f32) (a : Vec F S256x1024 .f32) (g : Vec F S1x256 .f32) : k0_pay4 (k0_pay2 v0) a g = k0_pay3 v0 a g := rfl
theorem pay5_eq (v0 : Vec F S1x1x1024 .f32) (a : Vec F S256x1024 .f32) (g : Vec F S1x256 .f32) : k0_pay5 (k0_pay2 v0) a g = k0_pay3 v0 a g := rfl
theorem pay6_eq (v0 : Vec F S1x1x1024 .f32) (a : Vec F S256x1024 .f32) (g : Vec F S1x256 .f32) : k0_pay6 (k0_pay2 v0) a g = k0_pay3 v0 a g := rfl
theorem pay8_eq (v0 : Vec F S1x1x1024 .f32) (a : Vec F S256x1024 .f32) (g : Vec F S1x256 .f32) : k0_pay8 (k0_pay7 v0) a g = k0_pay3 v0 a g := rfl
theorem pay9_eq (v0 : Vec F S1x1x1024 .f32) (a : Vec F S256x1024 .f32) (g : Vec F S1x256 .f32) : k0_pay9 (k0_pay7 v0) a g = k0_pay3 v0 a g := rfl
theorem pay10_eq (v0 : Vec F S1x1x1024 .f32) (a : Vec F S256x1024 .f32) (g : Vec F S1x256 .f32) : k0_pay10 (k0_pay7 v0) a g = k0_pay3 v0 a g := rfl
theorem pay1_eq (v0 : Vec F S1x1x1024 .f32) (a : Vec F S256x1024 .f32) (g : Vec F S1x256 .f32) : k0_pay1 (k0_pay7 v0) a g = k0_pay3 v0 a g := rfl

/-- The band from row `o` of matrix `b`, computed from the three loads that feed it, holds the block's elements. -/
theorem band_value (M0 : Memref sig .tc .vmem S2x1024x1024 .f32) (M1 : Memref sig .tc .vmem S2x1x1024 .f32)
    (f0 : M0.view.ty.Contents (Elt F)) (f1 : M1.view.ty.Contents (Elt F)) (b o : ℕ) (hb : b < 2) (ho : o + 256 ≤ 1024)
    (hR0 : ∀ a, (![b, 0, 0] : Fin 3 → ℕ) a + S1x1024x1024.size a ≤ S2x1024x1024.size a) (hs0) (hq0 : S1x1024x1024.Squeezes S1024x1024)
    (hr0 : ∀ a, (![o, 0] : Fin 2 → ℕ) a + S256x1024.size a ≤ S1024x1024.size a)
    (hR1 hR1' : ∀ a, (![b, 0, 0] : Fin 3 → ℕ) a + S1x1x1024.size a ≤ S2x1x1024.size a) (hs1) (hq1 : S1x1x1024.Squeezes S1x1024)
    (hr1 : ∀ a, (![0, o] : Fin 2 → ℕ) a + S1x256.size a ≤ S1x1024.size a)
    (b' : Fin 2) (r c : Fin 1024) (h0 : b'.val = b) (hlo : o ≤ r.val) (hhi : r.val < o + 256) :
    k0_pay3 (View.readAt (Elt F) M1.view (Rect.unit (s := S2x1x1024) ![b, 0, 0] S1x1x1024.size hR1').toLoadRect f1)
        (View.readAt (Elt F) ((M0.slice (Rect.unit (s := S2x1024x1024) ![b, 0, 0] S1x1024x1024.size hR0) hs0).squeeze S1024x1024 hq0).view
          (Rect.unit (s := S1024x1024) ![o, 0] S256x1024.size hr0).toLoadRect f0)
        (View.readAt (Elt F) ((M1.slice (Rect.unit (s := S2x1x1024) ![b, 0, 0] S1x1x1024.size hR1) hs1).squeeze S1x1024 hq1).view
          (Rect.unit (s := S1x1024) ![0, o] S1x256.size hr1).toLoadRect f1)
        (ix2 (⟨r.val - o, by omega⟩ : Fin 256) c)
      = block (M0.view.read (Elt F) f0) (M1.view.read (Elt F) f1) (ix3 b' r c) := by
  rw [pay3_apply, readAt_band M0 b o hb ho, readAt_seg M1 b o hb ho, readAt_row M1 b hb, block_apply]
  have i0 : bandIx b o hb ho (ix2 (⟨r.val - o, by omega⟩ : Fin 256) c) = ix3 b' r c :=
    funext fun d => Fin.ext (by
      match d with
      | ⟨0, _⟩ => exact h0.symm
      | ⟨1, _⟩ => show o + (r.val - o) = r.val; omega
      | ⟨2, _⟩ => rfl)
  have i1 : (ix3 (⟨b, hb⟩ : Fin 2) (0 : Fin 1) (⟨o + (r.val - o), by omega⟩ : Fin 1024) : S2x1x1024.Idx) = ix3 b' (0 : Fin 1) r :=
    funext fun d => Fin.ext (by
      match d with
      | ⟨0, _⟩ => exact h0.symm
      | ⟨1, _⟩ => rfl
      | ⟨2, _⟩ => show o + (r.val - o) = r.val; omega)
  have i2 : (ix3 (⟨b, hb⟩ : Fin 2) (0 : Fin 1) (⟨c.val, c.isLt⟩ : Fin 1024) : S2x1x1024.Idx) = ix3 b' (0 : Fin 1) c :=
    funext fun d => Fin.ext (by
      match d with
      | ⟨0, _⟩ => exact h0.symm
      | ⟨1, _⟩ => rfl
      | ⟨2, _⟩ => rfl)
  rw [i0]
  exact congrArg₂ (elt _) (congrArg _ i1) (congrArg _ i2)

theorem band_value' (M0 : Memref sig .tc .vmem S2x1024x1024 .f32) (M1 : Memref sig .tc .vmem S2x1x1024 .f32)
    (f0 : M0.view.ty.Contents (Elt F)) (f1 : M1.view.ty.Contents (Elt F)) (b o : ℕ)
    (hR0 : ∀ a, (![b, 0, 0] : Fin 3 → ℕ) a + S1x1024x1024.size a ≤ S2x1024x1024.size a) (hs0) (hq0 : S1x1024x1024.Squeezes S1024x1024)
    (hr0 : ∀ a, (![o, 0] : Fin 2 → ℕ) a + S256x1024.size a ≤ S1024x1024.size a)
    (hR1 hR1' : ∀ a, (![b, 0, 0] : Fin 3 → ℕ) a + S1x1x1024.size a ≤ S2x1x1024.size a) (hs1) (hq1 : S1x1x1024.Squeezes S1x1024)
    (hr1 : ∀ a, (![0, o] : Fin 2 → ℕ) a + S1x256.size a ≤ S1x1024.size a)
    (b' : Fin 2) (r c : Fin 1024) (h0 : b'.val = b) (hlo : o ≤ r.val) (hhi : r.val < o + 256) :
    k0_pay3 (View.readAt (Elt F) M1.view (Rect.unit (s := S2x1x1024) ![b, 0, 0] S1x1x1024.size hR1').toLoadRect f1)
        (View.readAt (Elt F) ((M0.slice (Rect.unit (s := S2x1024x1024) ![b, 0, 0] S1x1024x1024.size hR0) hs0).squeeze S1024x1024 hq0).view
          (Rect.unit (s := S1024x1024) ![o, 0] S256x1024.size hr0).toLoadRect f0)
        (View.readAt (Elt F) ((M1.slice (Rect.unit (s := S2x1x1024) ![b, 0, 0] S1x1x1024.size hR1) hs1).squeeze S1x1024 hq1).view
          (Rect.unit (s := S1x1024) ![0, o] S1x256.size hr1).toLoadRect f1)
        (ix2 (⟨r.val - o, by omega⟩ : Fin 256) c)
      = block (M0.view.read (Elt F) f0) (M1.view.read (Elt F) f1) (ix3 b' r c) :=
  band_value M0 M1 f0 f1 b o (hR0 0) (hr0 0) hR0 hs0 hq0 hr0 hR1 hR1' hs1 hq1 hr1 b' r c h0 hlo hhi

end Cert.Kernel.Hand

end
-- ==== Proof.BitsBody.lean ====
/-
  The body at one grid point, and the frame.

  At every grid point the body is handed a block of two input matrices, the block of the two matching
  vectors, and an output buffer of two matrices holding anything. It writes the output in eight bands of
  256 rows, four to a matrix, each band from three loads (BitsPayload.lean). A band written later does not
  overlap one written earlier, and the eight together are the whole buffer: so after the body an element
  `(b, r, c)` of the output buffer is what the one band that contains it wrote there, `block x0 x1` at
  `(b, r, c)` (`sound_kernel`). The inputs' buffers are only read. With this the pipeline's proof data
  are the blocks themselves for the inputs and `block` of them for the output (`dats`), and the library's
  frame run applies (`run_main`, `frame`).
-/
import proofs.«102524_j25838523253087_2_alg».proof.Proof.Gen.Kernel.Frame
import proofs.«102524_j25838523253087_2_alg».proof.Proof.BitsPayload

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A write of a band that does not contain the element read is passed over. -/
local macro "pass_band" : tactic => `(tactic| (rw [read_write_band_miss']; swap; omega))

/-- The write of the band that contains the element read gives the band's value there, `block` at the element. -/
local macro "take_band" : tactic =>
  `(tactic| (
      (rw [read_write_band_hit'] <;> try omega)
      (first | rw [pay4_eq] | rw [pay5_eq] | rw [pay6_eq] | rw [pay8_eq] | rw [pay9_eq] | rw [pay10_eq] | rw [pay1_eq] | skip)
      (refine band_value' _ _ _ _ _ _ _ _ _ _ _ _ _ _ _ _ _ _ ?_ ?_ ?_ <;> omega)))

set_option backward.isDefEq.respectTransparency.types false in
set_option maxHeartbeats 4000000 in
/-- The body on whole staging memrefs, the inputs' at contents `x0`, `x1` and the output's at anything, runs to the
    continuation holding the inputs' as they were and the output's at `block x0 x1`. -/
theorem sound_kernel (c : Dev nD) (E : Set ℕ) (i : grid0.Coords) (arg1 : Memref sig .tc .vmem S2x1024x1024 .f32) (harg1 : arg1.IsWhole) (arg2 : Memref sig .tc .vmem S2x1x1024 .f32) (harg2 : arg2.IsWhole) (arg3 : Memref sig .tc .vmem S2x1024x1024 .f32) (harg3 : arg3.IsWhole)
    (x0 : Vec F S2x1024x1024 .f32) (x1 : Vec F S2x1x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (block x0 x1)) -∗ K ⟨⟩))
      ⊢ wp frame (wpE (defs₀ (F := F)) Variants.none c none) E (cc0__fastweight_kernel i arg1 harg1 arg2 harg2 arg3 harg3) K := by
  simp only [cc0__fastweight_kernel_eq_skeleton]; unfold cc0__fastweight_kernel_skel
  unfold owns
  rw [harg3.set_eq_univ]
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_run_names
  funext j
  obtain ⟨b, r, c, rfl⟩ : ∃ (b : Fin 2) (r c : Fin 1024), j = ix3 b r c := ⟨j 0, j 1, j 2, eq_ix3 j⟩
  have hb : b.val = 0 ∨ b.val = 1 := by omega
  have hr : r.val < 256 ∨ (256 ≤ r.val ∧ r.val < 512) ∨ (512 ≤ r.val ∧ r.val < 768) ∨ 768 ≤ r.val := by omega
  rcases hb with hb | hb <;> rcases hr with hr | hr | hr | hr
  all_goals (repeat pass_band)
  all_goals take_band

end Cert.Kernel.Hand

end
-- ==== Proof.BitsRun.lean ====
/-
  The pipeline's proof data and the frame run.

  Over the grid of 64 points the pipeline hands the body, at point `t`, block `t` of the input array (two matrices),
  block `t` of the vectors' array, and an output staging buffer; after the body the inputs' buffers still hold their
  blocks and the output's holds `block` of the two (BitsBody.lean). These are the proof data `dats`; the library's frame
  run over them (`run_main`) ends with every array of the pipeline at what the proof data's write-backs leave and
  every other buffer as the region found it, and the frame claim follows (`frame`).
-/
import proofs.«102524_j25838523253087_2_alg».proof.Proof.BitsBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; after the body at point `t`
    each input's buffer at its block and the output's at `block` of the two input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => block (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = block (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of the program terminates, and every final state has
    every array of the pipeline at what the proof data's write-backs leave and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.Bands.lean ====
/-
  Where the body's accesses fall in a staging buffer of two 1024×1024 matrices.

  The body reaches matrix `b` of a staging buffer through a one-matrix slice with the leading unit axis
  dropped, and reads or writes 256 rows of it at a time. Element `(p, q)` of the 256-row band starting at
  row `o` of matrix `b` is element `(b, o + p, q)` of the buffer (`band_emb`); hence a write of such a band is
  seen at `(b', r, c)` exactly when `b' = b` and `o ≤ r < o + 256` (`read_write_band_hit`, `read_write_band_miss`),
  and a load of such a band reads the buffer at those elements (`readAt_band`). The same for the vector
  buffer [2, 1, 1024]: its row `b` (`readAt_row`) and 256 consecutive entries of it (`readAt_seg`).
-/
import proofs.«102524_j25838523253087_2_alg».proof.Proof.Gen.KernelIdeal
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.ShloMosaic.ValueIdx
open Cert.KernelIdeal

variable {F : FTy → Type} [FloatOps F]

/-- Element `(p, q)` of the band of 256 rows from row `o` of matrix `b`, as an index of the two-matrix buffer. -/
def bandIx (b o : ℕ) (hb : b < 2) (ho : o + 256 ≤ 1024) (y : S256x1024.Idx) : S2x1024x1024.Idx :=
  ix3 (⟨b, hb⟩ : Fin 2) (⟨o + (y 0).val, by have := idx2_lt0 y; omega⟩ : Fin 1024) (⟨(y 1).val, idx2_lt1 y⟩ : Fin 1024)

/-- The view a band access goes through places element `(p, q)` at element `(b, o + p, q)` of the buffer. -/
theorem band_emb (M : Memref sig .tc .vmem S2x1024x1024 .f32) (b o : ℕ) (hb : b < 2) (ho : o + 256 ≤ 1024)
    (hR : ∀ a, (![b, 0, 0] : Fin 3 → ℕ) a + S1x1024x1024.size a ≤ S2x1024x1024.size a) (hs) (hq : S1x1024x1024.Squeezes S1024x1024)
    (hr : ∀ a, (![o, 0] : Fin 2 → ℕ) a + S256x1024.size a ≤ S1024x1024.size a) (y : S256x1024.Idx) :
    (((M.slice (Rect.unit (s := S2x1024x1024) ![b, 0, 0] S1x1024x1024.size hR) hs).squeeze S1024x1024 hq).access
        (Rect.unit (s := S1024x1024) ![o, 0] S256x1024.size hr)).emb y
      = M.view.emb (bandIx b o hb ho y) := by
  show M.view.emb ((Rect.unit (s := S2x1024x1024) ![b, 0, 0] S1x1024x1024.size hR).emb
      (Shape.reshapeEquiv _ ((Rect.unit (s := S1024x1024) ![o, 0] S256x1024.size hr).emb y))) = _
  refine congrArg M.view.emb ?_
  have e1 : (Rect.unit (s := S1024x1024) ![o, 0] S256x1024.size hr).emb y
      = ix2 (⟨o + (y 0).val, by have := idx2_lt0 y; omega⟩ : Fin 1024) (⟨(y 1).val, idx2_lt1 y⟩ : Fin 1024) :=
    funext fun d => Fin.ext (by
      match d with
      | ⟨0, _⟩ => show o + 1 * (y 0).val = o + (y 0).val; omega
      | ⟨1, _⟩ => show 0 + 1 * (y 1).val = (y 1).val; omega)
  rw [e1, reshapeEquiv_ix2_1ab]
  funext d
  refine Fin.ext ?_
  match d with
  | ⟨0, _⟩ => show b + 1 * 0 = b; omega
  | ⟨1, _⟩ => show 0 + 1 * (o + (y 0).val) = o + (y 0).val; omega
  | ⟨2, _⟩ => show 0 + 1 * (y 1).val = (y 1).val; omega

/-- A band written through its view is read back through the buffer, at an element of the band, as the payload there. -/
theorem read_write_band_hit (M : Memref sig .tc .vmem S2x1024x1024 .f32) (b o : ℕ) (hb : b < 2) (ho : o + 256 ≤ 1024)
    (hR : ∀ a, (![b, 0, 0] : Fin 3 → ℕ) a + S1x1024x1024.size a ≤ S2x1024x1024.size a) (hs) (hq : S1x1024x1024.Squeezes S1024x1024)
    (hr : ∀ a, (![o, 0] : Fin 2 → ℕ) a + S256x1024.size a ≤ S1024x1024.size a)
    (f : M.view.ty.Contents (Elt F)) (w : S256x1024.Idx → Elt F .f32) (b' : Fin 2) (r c : Fin 1024)
    (h0 : b'.val = b) (hlo : o ≤ r.val) (hhi : r.val < o + 256) :
    M.view.read (Elt F) (View.write (Elt F)
        (((M.slice (Rect.unit (s := S2x1024x1024) ![b, 0, 0] S1x1024x1024.size hR) hs).squeeze S1024x1024 hq).access
          (Rect.unit (s := S1024x1024) ![o, 0] S256x1024.size hr)) f w Finset.univ) (ix3 b' r c)
      = w (ix2 (⟨r.val - o, by omega⟩ : Fin 256) c) := by
  have e : M.view.emb (ix3 b' r c)
      = (((M.slice (Rect.unit (s := S2x1024x1024) ![b, 0, 0] S1x1024x1024.size hR) hs).squeeze S1024x1024 hq).access
          (Rect.unit (s := S1024x1024) ![o, 0] S256x1024.size hr)).emb (ix2 (⟨r.val - o, by omega⟩ : Fin 256) c) := by
    rw [band_emb M b o hb ho hR hs hq hr]
    refine congrArg M.view.emb (funext fun d => Fin.ext ?_)
    match d with
    | ⟨0, _⟩ => exact h0
    | ⟨1, _⟩ => show r.val = o + (r.val - o); omega
    | ⟨2, _⟩ => rfl
  rw [View.read_apply, e, View.write_emb_of_mem _ _ (Finset.mem_univ _), cast_cast, cast_eq]

/-- and at an element outside the band, as what was there before. -/
theorem read_write_band_miss (M : Memref sig .tc .vmem S2x1024x1024 .f32) (b o : ℕ) (hb : b < 2) (ho : o + 256 ≤ 1024)
    (hR : ∀ a, (![b, 0, 0] : Fin 3 → ℕ) a + S1x1024x1024.size a ≤ S2x1024x1024.size a) (hs) (hq : S1x1024x1024.Squeezes S1024x1024)
    (hr : ∀ a, (![o, 0] : Fin 2 → ℕ) a + S256x1024.size a ≤ S1024x1024.size a)
    (f : M.view.ty.Contents (Elt F)) (w : S256x1024.Idx → Elt F .f32) (b' : Fin 2) (r c : Fin 1024)
    (h : b'.val ≠ b ∨ r.val < o ∨ o + 256 ≤ r.val) :
    M.view.read (Elt F) (View.write (Elt F)
        (((M.slice (Rect.unit (s := S2x1024x1024) ![b, 0, 0] S1x1024x1024.size hR) hs).squeeze S1024x1024 hq).access
          (Rect.unit (s := S1024x1024) ![o, 0] S256x1024.size hr)) f w Finset.univ) (ix3 b' r c)
      = M.view.read (Elt F) f (ix3 b' r c) := by
  rw [View.read_apply, View.read_apply, View.write_of_not_mem]
  intro hmem
  obtain ⟨y, -, hy⟩ := Finset.mem_map.mp hmem
  rw [band_emb M b o hb ho hR hs hq hr] at hy
  have hj := M.view.emb.injective hy
  have h0 : b = b'.val := congrArg (fun j : S2x1024x1024.Idx => (j 0).val) hj
  have h1 : o + (y 0).val = r.val := congrArg (fun j : S2x1024x1024.Idx => (j 1).val) hj
  have := idx2_lt0 y
  omega

/-- A load of a band reads the buffer at the band's elements. -/
theorem readAt_band (M : Memref sig .tc .vmem S2x1024x1024 .f32) (b o : ℕ) (hb : b < 2) (ho : o + 256 ≤ 1024)
    (hR : ∀ a, (![b, 0, 0] : Fin 3 → ℕ) a + S1x1024x1024.size a ≤ S2x1024x1024.size a) (hs) (hq : S1x1024x1024.Squeezes S1024x1024)
    (hr : ∀ a, (![o, 0] : Fin 2 → ℕ) a + S256x1024.size a ≤ S1024x1024.size a)
    (f : M.view.ty.Contents (Elt F)) (y : S256x1024.Idx) :
    View.readAt (Elt F) ((M.slice (Rect.unit (s := S2x1024x1024) ![b, 0, 0] S1x1024x1024.size hR) hs).squeeze S1024x1024 hq).view
        (Rect.unit (s := S1024x1024) ![o, 0] S256x1024.size hr).toLoadRect f y
      = M.view.read (Elt F) f (bandIx b o hb ho y) := by
  show View.read (Elt F) (((M.slice (Rect.unit (s := S2x1024x1024) ![b, 0, 0] S1x1024x1024.size hR) hs).squeeze S1024x1024 hq).access
        (Rect.unit (s := S1024x1024) ![o, 0] S256x1024.size hr)) f y = _
  rw [View.read_apply, band_emb M b o hb ho hR hs hq hr, View.read_apply]

/-- A load of row `b` of the vector buffer reads it at `(b, 0, q)`. -/
theorem readAt_row (M : Memref sig .tc .vmem S2x1x1024 .f32) (b : ℕ) (hb : b < 2)
    (hR : ∀ a, (![b, 0, 0] : Fin 3 → ℕ) a + S1x1x1024.size a ≤ S2x1x1024.size a)
    (f : M.view.ty.Contents (Elt F)) (y : S1x1x1024.Idx) :
    View.readAt (Elt F) M.view (Rect.unit (s := S2x1x1024) ![b, 0, 0] S1x1x1024.size hR).toLoadRect f y
      = M.view.read (Elt F) f (ix3 (⟨b, hb⟩ : Fin 2) (0 : Fin 1) (⟨(y 2).val, (y 2).isLt⟩ : Fin 1024)) := by
  rw [View.readAt_apply]
  refine congrArg (M.view.read (Elt F) f) (funext fun d => Fin.ext ?_)
  match d with
  | ⟨0, _⟩ => show b + 1 * (y 0).val = b; have := (y 0).isLt; have : (y 0).val < 1 := this; omega
  | ⟨1, _⟩ => show 0 + 1 * (y 1).val = 0; have := (y 1).isLt; have : (y 1).val < 1 := this; omega
  | ⟨2, _⟩ => show 0 + 1 * (y 2).val = (y 2).val; omega

/-- A load of 256 entries from entry `o` of row `b` of the vector buffer reads it at `(b, 0, o + p)`. -/
theorem readAt_seg (M : Memref sig .tc .vmem S2x1x1024 .f32) (b o : ℕ) (hb : b < 2) (ho : o + 256 ≤ 1024)
    (hR : ∀ a, (![b, 0, 0] : Fin 3 → ℕ) a + S1x1x1024.size a ≤ S2x1x1024.size a) (hs) (hq : S1x1x1024.Squeezes S1x1024)
    (hr : ∀ a, (![0, o] : Fin 2 → ℕ) a + S1x256.size a ≤ S1x1024.size a)
    (f : M.view.ty.Contents (Elt F)) (y : S1x256.Idx) :
    View.readAt (Elt F) ((M.slice (Rect.unit (s := S2x1x1024) ![b, 0, 0] S1x1x1024.size hR) hs).squeeze S1x1024 hq).view
        (Rect.unit (s := S1x1024) ![0, o] S1x256.size hr).toLoadRect f y
      = M.view.read (Elt F) f (ix3 (⟨b, hb⟩ : Fin 2) (0 : Fin 1) (⟨o + (y 1).val, by have := idx2_lt1 y; omega⟩ : Fin 1024)) := by
  show _root_.cast _ (f (M.view.emb ((Rect.unit (s := S2x1x1024) ![b, 0, 0] S1x1x1024.size hR).emb
      (Shape.reshapeEquiv _ ((Rect.unit (s := S1x1024) ![0, o] S1x256.size hr).emb y))))) = _
  rw [View.read_apply]
  have e1 : (Rect.unit (s := S1x1024) ![0, o] S1x256.size hr).emb y
      = ix2 (0 : Fin 1) (⟨o + (y 1).val, by have := idx2_lt1 y; omega⟩ : Fin 1024) :=
    funext fun d => Fin.ext (by
      match d with
      | ⟨0, _⟩ => show 0 + 1 * (y 0).val = 0; have := idx2_lt0 y; omega
      | ⟨1, _⟩ => show o + 1 * (y 1).val = o + (y 1).val; omega)
  rw [e1, reshapeEquiv_ix2_1ab]
  have e2 : (Rect.unit (s := S2x1x1024) ![b, 0, 0] S1x1x1024.size hR).emb
        (ix3 (⟨0, Nat.one_pos⟩ : Fin 1) (0 : Fin 1) (⟨o + (y 1).val, by have := idx2_lt1 y; omega⟩ : Fin 1024))
      = ix3 (⟨b, hb⟩ : Fin 2) (0 : Fin 1) (⟨o + (y 1).val, by have := idx2_lt1 y; omega⟩ : Fin 1024) :=
    funext fun d => Fin.ext (by
      match d with
      | ⟨0, _⟩ => show b + 1 * 0 = b; omega
      | ⟨1, _⟩ => show 0 + 1 * 0 = 0; omega
      | ⟨2, _⟩ => show 0 + 1 * (o + (y 1).val) = o + (y 1).val; omega)
  rw [e2]

/-! The same three with the two range facts read off the rectangles' own in-bounds evidence. -/

theorem read_write_band_hit' (M : Memref sig .tc .vmem S2x1024x1024 .f32) (b o : ℕ)
    (hR : ∀ a, (![b, 0, 0] : Fin 3 → ℕ) a + S1x1024x1024.size a ≤ S2x1024x1024.size a) (hs) (hq : S1x1024x1024.Squeezes S1024x1024)
    (hr : ∀ a, (![o, 0] : Fin 2 → ℕ) a + S256x1024.size a ≤ S1024x1024.size a)
    (f : M.view.ty.Contents (Elt F)) (w : S256x1024.Idx → Elt F .f32) (b' : Fin 2) (r c : Fin 1024)
    (h0 : b'.val = b) (hlo : o ≤ r.val) (hhi : r.val < o + 256) :
    M.view.read (Elt F) (View.write (Elt F)
        (((M.slice (Rect.unit (s := S2x1024x1024) ![b, 0, 0] S1x1024x1024.size hR) hs).squeeze S1024x1024 hq).access
          (Rect.unit (s := S1024x1024) ![o, 0] S256x1024.size hr)) f w Finset.univ) (ix3 b' r c)
      = w (ix2 (⟨r.val - o, by omega⟩ : Fin 256) c) :=
  read_write_band_hit M b o (hR 0) (hr 0) hR hs hq hr f w b' r c h0 hlo hhi

theorem read_write_band_miss' (M : Memref sig .tc .vmem S2x1024x1024 .f32) (b o : ℕ)
    (hR : ∀ a, (![b, 0, 0] : Fin 3 → ℕ) a + S1x1024x1024.size a ≤ S2x1024x1024.size a) (hs) (hq : S1x1024x1024.Squeezes S1024x1024)
    (hr : ∀ a, (![o, 0] : Fin 2 → ℕ) a + S256x1024.size a ≤ S1024x1024.size a)
    (f : M.view.ty.Contents (Elt F)) (w : S256x1024.Idx → Elt F .f32) (b' : Fin 2) (r c : Fin 1024)
    (h : b'.val ≠ b ∨ r.val < o ∨ o + 256 ≤ r.val) :
    M.view.read (Elt F) (View.write (Elt F)
        (((M.slice (Rect.unit (s := S2x1024x1024) ![b, 0, 0] S1x1024x1024.size hR) hs).squeeze S1024x1024 hq).access
          (Rect.unit (s := S1024x1024) ![o, 0] S256x1024.size hr)) f w Finset.univ) (ix3 b' r c)
      = M.view.read (Elt F) f (ix3 b' r c) :=
  read_write_band_miss M b o (hR 0) (hr 0) hR hs hq hr f w b' r c h

end Cert.KernelIdeal.Hand

end
-- ==== Proof.Payload.lean ====
/-
  What one band of the output holds, element by element.

  Every store of the body writes, into 256 rows of one output matrix, the same expression of three loads:
  the band `a` of the input matrix, the row `h` of the vector and the 256 entries `g` of that row that face
  the band. At element `(p, q)` of the band it is `a[p,q]·0.95 + (g[p]·h[q])·0.5` (`pay3_apply`): the entries
  `g`, a [1,256] row, are turned into a column and spread along the rows, the row `h` is spread down
  the columns. Read through the staging buffers the three loads come from, the band starting at row `o`
  of matrix `b` therefore holds, at row `r` and column `c` of that matrix,
  `A[b,r,c]·0.95 + (h[b,r]·h[b,c])·0.5` (`band_value`), which is `block A h` at `(b, r, c)`.
-/
import proofs.«102524_j25838523253087_2_alg».proof.Proof.Gen.KernelIdeal.Skeleton
import proofs.«102524_j25838523253087_2_alg».proof.Proof.Bands
import proofs.«102524_j25838523253087_2_alg».proof.Proof.Spec

noncomputable section

namespace Cert.KernelIdeal.Hand

open Idealize.ShloMosaic Idealize.ShloMosaic.TcCoe Idealize.ShloMosaic.ValueIdx
open Cert.KernelIdeal Cert.KernelIdeal.Gen Cert.Spec

variable {F : FTy → Type} [FloatOps F]

/-- The block of two result matrices from the block `X0` of two input matrices and the block `X1` of two vectors. -/
def block (X0 : Vec F S2x1024x1024 .f32) (X1 : Vec F S2x1x1024 .f32) : Vec F S2x1024x1024 .f32 :=
  fun j => elt (X0 j) (X1 (ix3 (⟨(j 0).val, (j 0).isLt⟩ : Fin 2) (0 : Fin 1) (⟨(j 1).val, (j 1).isLt⟩ : Fin 1024)))
    (X1 (ix3 (⟨(j 0).val, (j 0).isLt⟩ : Fin 2) (0 : Fin 1) (⟨(j 2).val, (j 2).isLt⟩ : Fin 1024)))

theorem block_apply (X0 : Vec F S2x1024x1024 .f32) (X1 : Vec F S2x1x1024 .f32) (b : Fin 2) (r c : Fin 1024) :
    block X0 X1 (ix3 b r c) = elt (X0 (ix3 b r c)) (X1 (ix3 b (0 : Fin 1) r)) (X1 (ix3 b (0 : Fin 1) c)) := rfl

section Spread
variable {α : Type}

/-- A [256,1] column spread to [256,1024] reads, at `(p, q)`, the column at `p`. -/
theorem spreadCol_apply (v : S256x1.Idx → α) (h : S256x1.Broadcasts S256x1024) (p : Fin 256) (q : Fin 1024) :
    broadcastTo S256x1024 v h (ix2 p q) = v (ix2 p (0 : Fin 1)) := by
  refine broadcastTo_apply v h (ix2 p q) (ix2 p (0 : Fin 1)) fun ax => ?_
  match ax with
  | ⟨0, _⟩ =>
    show p.val = if (256 : ℕ) = 1 then 0 else p.val
    rw [if_neg (by decide)]
  | ⟨1, _⟩ =>
    show (0 : ℕ) = if (1 : ℕ) = 1 then 0 else q.val
    rw [if_pos rfl]

end Spread

variable [Facts]
open Facts₀ Facts

/-- The stored expression at element `(p, q)` of its band. -/
theorem pay3_apply (v0 : Vec F S1x1x1024 .f32) (a : Vec F S256x1024 .f32) (g : Vec F S1x256 .f32) (p : Fin 256) (q : Fin 1024) :
    k0_pay3 v0 a g (ix2 p q) = elt (a (ix2 p q)) (g (ix2 (0 : Fin 1) p)) (v0 (ix3 (0 : Fin 1) (0 : Fin 1) q)) := by
  have e1 : broadcastTo S256x1024 (transpose S256x1 [1, 0] (shapeCast S1x256 g Facts₀.shapeCasts_S1x256_S1x256) Facts₀.transposes_S1x256_p1_0_S256x1)
      Facts₀.broadcasts_S256x1_S256x1024 (ix2 p q) = g (ix2 (0 : Fin 1) p) :=
    (spreadCol_apply _ _ p q).trans ((transpose_ix2_apply _ _ p (0 : Fin 1)).trans
      (congrFun (shapeCast_self g Facts₀.shapeCasts_S1x256_S1x256) _))
  have e2 : broadcastTo S256x1024 (k0_pay2 v0) Facts₀.broadcasts_S1x1024_S256x1024 (ix2 p q) = v0 (ix3 (0 : Fin 1) (0 : Fin 1) q) :=
    (broadcastTo_1b_ab_apply _ _ p q).trans (shapeCast_1ab_ab_apply v0 Facts₀.shapeCasts_S1x1x1024_S1x1024 (0 : Fin 1) q)
  show FloatOps.addf (FloatOps.mulf (a (ix2 p q)) _) (FloatOps.mulf (FloatOps.mulf
      (broadcastTo S256x1024 (transpose S256x1 [1, 0] (shapeCast S1x256 g Facts₀.shapeCasts_S1x256_S1x256) Facts₀.transposes_S1x256_p1_0_S256x1)
        Facts₀.broadcasts_S256x1_S256x1024 (ix2 p q))
      (broadcastTo S256x1024 (k0_pay2 v0) Facts₀.broadcasts_S1x1024_S256x1024 (ix2 p q))) _) = _
  rw [e1, e2]
  rfl

/-- The other seven stores write the same expression. -/
theorem pay4_eq (v0 : Vec F S1x1x1024 .f32) (a : Vec F S256x1024 .f32) (g : Vec F S1x256 .f32) : k0_pay4 (k0_pay2 v0) a g = k0_pay3 v0 a g := rfl
theorem pay5_eq (v0 : Vec F S1x1x1024 .f32) (a : Vec F S256x1024 .f32) (g : Vec F S1x256 .f32) : k0_pay5 (k0_pay2 v0) a g = k0_pay3 v0 a g := rfl
theorem pay6_eq (v0 : Vec F S1x1x1024 .f32) (a : Vec F S256x1024 .f32) (g : Vec F S1x256 .f32) : k0_pay6 (k0_pay2 v0) a g = k0_pay3 v0 a g := rfl
theorem pay8_eq (v0 : Vec F S1x1x1024 .f32) (a : Vec F S256x1024 .f32) (g : Vec F S1x256 .f32) : k0_pay8 (k0_pay7 v0) a g = k0_pay3 v0 a g := rfl
theorem pay9_eq (v0 : Vec F S1x1x1024 .f32) (a : Vec F S256x1024 .f32) (g : Vec F S1x256 .f32) : k0_pay9 (k0_pay7 v0) a g = k0_pay3 v0 a g := rfl
theorem pay10_eq (v0 : Vec F S1x1x1024 .f32) (a : Vec F S256x1024 .f32) (g : Vec F S1x256 .f32) : k0_pay10 (k0_pay7 v0) a g = k0_pay3 v0 a g := rfl
theorem pay1_eq (v0 : Vec F S1x1x1024 .f32) (a : Vec F S256x1024 .f32) (g : Vec F S1x256 .f32) : k0_pay1 (k0_pay7 v0) a g = k0_pay3 v0 a g := rfl

/-- The band from row `o` of matrix `b`, computed from the three loads that feed it, holds the block's elements. -/
theorem band_value (M0 : Memref sig .tc .vmem S2x1024x1024 .f32) (M1 : Memref sig .tc .vmem S2x1x1024 .f32)
    (f0 : M0.view.ty.Contents (Elt F)) (f1 : M1.view.ty.Contents (Elt F)) (b o : ℕ) (hb : b < 2) (ho : o + 256 ≤ 1024)
    (hR0 : ∀ a, (![b, 0, 0] : Fin 3 → ℕ) a + S1x1024x1024.size a ≤ S2x1024x1024.size a) (hs0) (hq0 : S1x1024x1024.Squeezes S1024x1024)
    (hr0 : ∀ a, (![o, 0] : Fin 2 → ℕ) a + S256x1024.size a ≤ S1024x1024.size a)
    (hR1 hR1' : ∀ a, (![b, 0, 0] : Fin 3 → ℕ) a + S1x1x1024.size a ≤ S2x1x1024.size a) (hs1) (hq1 : S1x1x1024.Squeezes S1x1024)
    (hr1 : ∀ a, (![0, o] : Fin 2 → ℕ) a + S1x256.size a ≤ S1x1024.size a)
    (b' : Fin 2) (r c : Fin 1024) (h0 : b'.val = b) (hlo : o ≤ r.val) (hhi : r.val < o + 256) :
    k0_pay3 (View.readAt (Elt F) M1.view (Rect.unit (s := S2x1x1024) ![b, 0, 0] S1x1x1024.size hR1').toLoadRect f1)
        (View.readAt (Elt F) ((M0.slice (Rect.unit (s := S2x1024x1024) ![b, 0, 0] S1x1024x1024.size hR0) hs0).squeeze S1024x1024 hq0).view
          (Rect.unit (s := S1024x1024) ![o, 0] S256x1024.size hr0).toLoadRect f0)
        (View.readAt (Elt F) ((M1.slice (Rect.unit (s := S2x1x1024) ![b, 0, 0] S1x1x1024.size hR1) hs1).squeeze S1x1024 hq1).view
          (Rect.unit (s := S1x1024) ![0, o] S1x256.size hr1).toLoadRect f1)
        (ix2 (⟨r.val - o, by omega⟩ : Fin 256) c)
      = block (M0.view.read (Elt F) f0) (M1.view.read (Elt F) f1) (ix3 b' r c) := by
  rw [pay3_apply, readAt_band M0 b o hb ho, readAt_seg M1 b o hb ho, readAt_row M1 b hb, block_apply]
  have i0 : bandIx b o hb ho (ix2 (⟨r.val - o, by omega⟩ : Fin 256) c) = ix3 b' r c :=
    funext fun d => Fin.ext (by
      match d with
      | ⟨0, _⟩ => exact h0.symm
      | ⟨1, _⟩ => show o + (r.val - o) = r.val; omega
      | ⟨2, _⟩ => rfl)
  have i1 : (ix3 (⟨b, hb⟩ : Fin 2) (0 : Fin 1) (⟨o + (r.val - o), by omega⟩ : Fin 1024) : S2x1x1024.Idx) = ix3 b' (0 : Fin 1) r :=
    funext fun d => Fin.ext (by
      match d with
      | ⟨0, _⟩ => exact h0.symm
      | ⟨1, _⟩ => rfl
      | ⟨2, _⟩ => show o + (r.val - o) = r.val; omega)
  have i2 : (ix3 (⟨b, hb⟩ : Fin 2) (0 : Fin 1) (⟨c.val, c.isLt⟩ : Fin 1024) : S2x1x1024.Idx) = ix3 b' (0 : Fin 1) c :=
    funext fun d => Fin.ext (by
      match d with
      | ⟨0, _⟩ => exact h0.symm
      | ⟨1, _⟩ => rfl
      | ⟨2, _⟩ => rfl)
  rw [i0]
  exact congrArg₂ (elt _) (congrArg _ i1) (congrArg _ i2)

theorem band_value' (M0 : Memref sig .tc .vmem S2x1024x1024 .f32) (M1 : Memref sig .tc .vmem S2x1x1024 .f32)
    (f0 : M0.view.ty.Contents (Elt F)) (f1 : M1.view.ty.Contents (Elt F)) (b o : ℕ)
    (hR0 : ∀ a, (![b, 0, 0] : Fin 3 → ℕ) a + S1x1024x1024.size a ≤ S2x1024x1024.size a) (hs0) (hq0 : S1x1024x1024.Squeezes S1024x1024)
    (hr0 : ∀ a, (![o, 0] : Fin 2 → ℕ) a + S256x1024.size a ≤ S1024x1024.size a)
    (hR1 hR1' : ∀ a, (![b, 0, 0] : Fin 3 → ℕ) a + S1x1x1024.size a ≤ S2x1x1024.size a) (hs1) (hq1 : S1x1x1024.Squeezes S1x1024)
    (hr1 : ∀ a, (![0, o] : Fin 2 → ℕ) a + S1x256.size a ≤ S1x1024.size a)
    (b' : Fin 2) (r c : Fin 1024) (h0 : b'.val = b) (hlo : o ≤ r.val) (hhi : r.val < o + 256) :
    k0_pay3 (View.readAt (Elt F) M1.view (Rect.unit (s := S2x1x1024) ![b, 0, 0] S1x1x1024.size hR1').toLoadRect f1)
        (View.readAt (Elt F) ((M0.slice (Rect.unit (s := S2x1024x1024) ![b, 0, 0] S1x1024x1024.size hR0) hs0).squeeze S1024x1024 hq0).view
          (Rect.unit (s := S1024x1024) ![o, 0] S256x1024.size hr0).toLoadRect f0)
        (View.readAt (Elt F) ((M1.slice (Rect.unit (s := S2x1x1024) ![b, 0, 0] S1x1x1024.size hR1) hs1).squeeze S1x1024 hq1).view
          (Rect.unit (s := S1x1024) ![0, o] S1x256.size hr1).toLoadRect f1)
        (ix2 (⟨r.val - o, by omega⟩ : Fin 256) c)
      = block (M0.view.read (Elt F) f0) (M1.view.read (Elt F) f1) (ix3 b' r c) :=
  band_value M0 M1 f0 f1 b o (hR0 0) (hr0 0) hR0 hs0 hq0 hr0 hR1 hR1' hs1 hq1 hr1 b' r c h0 hlo hhi

end Cert.KernelIdeal.Hand

end
-- ==== Proof.Body.lean ====
/-
  The body at one grid point, and the frame.

  At every grid point the body is handed a block of two input matrices, the block of the two matching
  vectors, and an output buffer of two matrices holding anything. It writes the output in eight bands of
  256 rows, four to a matrix, each band from three loads (Payload.lean). A band written later does not
  overlap one written earlier, and the eight together are the whole buffer: so after the body an element
  `(b, r, c)` of the output buffer is what the one band that contains it wrote there, `block x0 x1` at
  `(b, r, c)` (`sound_kernel`). The inputs' buffers are only read. With this the pipeline's proof data
  are the blocks themselves for the inputs and `block` of them for the output (`dats`), and the library's
  frame run applies (`run_main`, `frame`).
-/
import proofs.«102524_j25838523253087_2_alg».proof.Proof.Gen.KernelIdeal.Frame
import proofs.«102524_j25838523253087_2_alg».proof.Proof.Payload

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A write of a band that does not contain the element read is passed over. -/
local macro "pass_band" : tactic => `(tactic| (rw [read_write_band_miss']; swap; omega))

/-- The write of the band that contains the element read gives the band's value there, `block` at the element. -/
local macro "take_band" : tactic =>
  `(tactic| (
      (rw [read_write_band_hit'] <;> try omega)
      (first | rw [pay4_eq] | rw [pay5_eq] | rw [pay6_eq] | rw [pay8_eq] | rw [pay9_eq] | rw [pay10_eq] | rw [pay1_eq] | skip)
      (refine band_value' _ _ _ _ _ _ _ _ _ _ _ _ _ _ _ _ _ _ ?_ ?_ ?_ <;> omega)))

set_option backward.isDefEq.respectTransparency.types false in
set_option maxHeartbeats 4000000 in
/-- The body on whole staging memrefs, the inputs' at contents `x0`, `x1` and the output's at anything, runs to the
    continuation holding the inputs' as they were and the output's at `block x0 x1`. -/
theorem sound_kernel (c : Dev nD) (E : Set ℕ) (i : grid0.Coords) (arg1 : Memref sig .tc .vmem S2x1024x1024 .f32) (harg1 : arg1.IsWhole) (arg2 : Memref sig .tc .vmem S2x1x1024 .f32) (harg2 : arg2.IsWhole) (arg3 : Memref sig .tc .vmem S2x1024x1024 .f32) (harg3 : arg3.IsWhole)
    (x0 : Vec F S2x1024x1024 .f32) (x1 : Vec F S2x1x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (block x0 x1)) -∗ K ⟨⟩))
      ⊢ wp frame (wpE (defs₀ (F := F)) Variants.none c none) E (cc0__fastweight_kernel i arg1 harg1 arg2 harg2 arg3 harg3) K := by
  simp only [cc0__fastweight_kernel_eq_skeleton]; unfold cc0__fastweight_kernel_skel
  unfold owns
  rw [harg3.set_eq_univ]
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_run_names
  funext j
  obtain ⟨b, r, c, rfl⟩ : ∃ (b : Fin 2) (r c : Fin 1024), j = ix3 b r c := ⟨j 0, j 1, j 2, eq_ix3 j⟩
  have hb : b.val = 0 ∨ b.val = 1 := by omega
  have hr : r.val < 256 ∨ (256 ≤ r.val ∧ r.val < 512) ∨ (512 ≤ r.val ∧ r.val < 768) ∨ 768 ≤ r.val := by omega
  rcases hb with hb | hb <;> rcases hr with hr | hr | hr | hr
  all_goals (repeat pass_band)
  all_goals take_band

end Cert.KernelIdeal.Hand

end
-- ==== Proof.Run.lean ====
/-
  The pipeline's proof data and the frame run.

  Over the grid of 64 points the pipeline hands the body, at point `t`, block `t` of the input array (two matrices),
  block `t` of the vectors' array, and an output staging buffer; after the body the inputs' buffers still hold their
  blocks and the output's holds `block` of the two (Body.lean). These are the proof data `dats`; the library's frame
  run over them (`run_main`) ends with every array of the pipeline at what the proof data's write-backs leave and
  every other buffer as the region found it, and the frame claim follows (`frame`).
-/
import proofs.«102524_j25838523253087_2_alg».proof.Proof.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; after the body at point `t`
    each input's buffer at its block and the output's at `block` of the two input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => block (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = block (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of the program terminates, and every final state has
    every array of the pipeline at what the proof data's write-backs leave and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Value.lean ====
/-
  What the kernel's result array holds after the run.

  Grid point `t` (of 64) works on matrices `2t` and `2t + 1`: each window's block at `t` is the two-matrix (or
  two-vector) slab of its array at leading index `2t` (`idx_facts`, `blk*_emb`). The vectors reach the kernel as a
  [128, 1, 1024] array, the reshape of the argument (`V_vecs`). So what point `t` writes back, `block` of its two
  input blocks, is the slab at `2t` of `whole A h` (`flushed_eq`); the 64 slabs are the whole array (`cover`), and
  the array ends holding `whole A h` (`final`, `run`).
-/
import proofs.«102524_j25838523253087_2_alg».proof.Proof.Run
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable {F : FTy → Type} [FloatOps F]
variable (m : (ℓ : Loc nD τ sig) → Buf (Elt F) ℓ) (ρ : Dev nD → PrngReg)

/-- The printed index maps over the grid: every window's block at point `t` is at leading block index `t`, and at
    block index 0 on the other axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem t_lt (t : Fin cfg0.N) : t.val < 64 := by have := t.isLt; have h : cfg0.N = 64 := N_0; omega

/-- Element `(b, r, q)` of the input matrices' block at point `t` is element `(2t + b, r, q)` of their array. -/
theorem blk0_emb (t : Fin cfg0.N) (b : Fin 2) (r q : Fin 1024) :
    ((cfg0.win 0).blk t).view.emb (ix3 b r q) = ix3 (⟨2 * t.val + b.val, by have := t_lt t; omega⟩ : Fin 128) r q := by
  obtain ⟨e0, e1, e2, -⟩ := idx_facts t
  funext a; apply Fin.ext
  match a with
  | ⟨0, _⟩ => show win0_0.index t (0 : Fin 3) * 2 + 1 * b.val = 2 * t.val + b.val; omega
  | ⟨1, _⟩ => show win0_0.index t (1 : Fin 3) * 1024 + 1 * r.val = r.val; omega
  | ⟨2, _⟩ => show win0_0.index t (2 : Fin 3) * 1024 + 1 * q.val = q.val; omega

/-- The same for the output's block. -/
theorem blk2_emb (t : Fin cfg0.N) (b : Fin 2) (r q : Fin 1024) :
    ((cfg0.win 2).blk t).view.emb (ix3 b r q) = ix3 (⟨2 * t.val + b.val, by have := t_lt t; omega⟩ : Fin 128) r q := by
  obtain ⟨-, -, -, -, -, -, e0, e1, e2⟩ := idx_facts t
  funext a; apply Fin.ext
  match a with
  | ⟨0, _⟩ => show win0_2.index t (0 : Fin 3) * 2 + 1 * b.val = 2 * t.val + b.val; omega
  | ⟨1, _⟩ => show win0_2.index t (1 : Fin 3) * 1024 + 1 * r.val = r.val; omega
  | ⟨2, _⟩ => show win0_2.index t (2 : Fin 3) * 1024 + 1 * q.val = q.val; omega

/-- Element `(b, 0, q)` of the vectors' block at point `t` is element `(2t + b, 0, q)` of their array. -/
theorem blk1_emb (t : Fin cfg0.N) (b : Fin 2) (q : Fin 1024) :
    ((cfg0.win 1).blk t).view.emb (ix3 b (0 : Fin 1) q) = ix3 (⟨2 * t.val + b.val, by have := t_lt t; omega⟩ : Fin 128) (0 : Fin 1) q := by
  obtain ⟨-, -, -, e0, e1, e2, -⟩ := idx_facts t
  funext a; apply Fin.ext
  match a with
  | ⟨0, _⟩ => show win0_1.index t (0 : Fin 3) * 2 + 1 * b.val = 2 * t.val + b.val; omega
  | ⟨1, _⟩ => show win0_1.index t (1 : Fin 3) * 1 + 1 * 0 = 0; omega
  | ⟨2, _⟩ => show win0_1.index t (2 : Fin 3) * 1024 + 1 * q.val = q.val; omega

/-- The vectors' array as the region finds it: the argument with a unit axis put in the middle. -/
theorem V_vecs (c : Dev nD) : (V m c main_v0 : S128x1x1024.Idx → Elt F .f32)
    = shapeCast S128x1x1024 (m ((c : Thread nD τ).loc main_arg1)) Facts₀.shapeCasts_S128x1024_S128x1x1024 := by
  dsimp only [V, hostOps0]; after_results; rfl

/-- and at `(n, 0, q)` it is the argument's `(n, q)`. -/
theorem V_vecs_apply (c : Dev nD) (n : Fin 128) (q : Fin 1024) :
    V m c main_v0 (ix3 n (0 : Fin 1) q) = m ((c : Thread nD τ).loc main_arg1) (ix2 n q) := by
  rw [V_vecs]
  exact shapeCast_apply (s := S128x1024) (t := S128x1x1024) _ _ (ix3 n (0 : Fin 1) q) (ix2 n q) (by
    show (S128x1024.rowMajor (ix2 n q)).val = (S128x1x1024.rowMajor (ix3 n (0 : Fin 1) q)).val
    rw [Shape.rowMajor_val_three, Shape.rowMajor_val_two]
    show n.val * 1024 + q.val = (n.val * 1 + 0) * 1024 + q.val
    omega)

/-- The input matrices' block at point `t`, read at an element. -/
theorem iblk0_apply (c : Dev nD) (t : Fin cfg0.N) (b : Fin 2) (r q : Fin 1024) :
    iblk m c 0 t (ix3 b r q) = m ((c : Thread nD τ).loc main_arg0) (ix3 (⟨2 * t.val + b.val, by have := t_lt t; omega⟩ : Fin 128) r q) := by
  show V m c main_arg0 (((cfg0.win 0).blk t).view.emb (ix3 b r q)) = _
  rw [blk0_emb, V_main_arg0]

/-- The vectors' block at point `t`, read at an element. -/
theorem iblk1_apply (c : Dev nD) (t : Fin cfg0.N) (b : Fin 2) (q : Fin 1024) :
    iblk m c 1 t (ix3 b (0 : Fin 1) q) = m ((c : Thread nD τ).loc main_arg1) (ix2 (⟨2 * t.val + b.val, by have := t_lt t; omega⟩ : Fin 128) q) := by
  show V m c main_v0 (((cfg0.win 1).blk t).view.emb (ix3 b (0 : Fin 1) q)) = _
  rw [blk1_emb, V_vecs_apply]

/-- What point `t` writes back is slab `t` of `whole` of the two argument arrays. -/
theorem flushed_eq (c : Dev nD) (t : Fin cfg0.N) :
    (dats m 0 c).flushed 2 t = ((cfg0.win 2).blk t).view.read (Elt F)
      (whole (m ((c : Thread nD τ).loc main_arg0)) (m ((c : Thread nD τ).loc main_arg1))) := by
  show (cfg0.win 2).cut (grid0.coords t) ((dats m 0 c).after 2 t) = _
  rw [after0_2]
  funext j
  obtain ⟨b, r, q, rfl⟩ : ∃ (b : Fin 2) (r q : Fin 1024), j = ix3 b r q := ⟨j 0, j 1, j 2, eq_ix3 j⟩
  show block (iblk m c 0 t) (iblk m c 1 t) (ix3 b r q)
    = whole (m ((c : Thread nD τ).loc main_arg0)) (m ((c : Thread nD τ).loc main_arg1)) (((cfg0.win 2).blk t).view.emb (ix3 b r q))
  rw [block_apply, iblk0_apply, iblk1_apply, iblk1_apply, blk2_emb, whole_apply]

/-- An index of the array is in point `t`'s block iff each coordinate is in the block's range on its axis. -/
theorem mem_blk (t : Fin cfg0.N) (i : S128x1024x1024.Idx) :
    i ∈ ((cfg0.win 2).blk t).view.set ↔ ∀ a : Fin 3, win0_2.index t a * S2x1024x1024.size a ≤ (i a).val ∧ (i a).val < win0_2.index t a * S2x1024x1024.size a + S2x1024x1024.size a := by
  show i ∈ ((View.whole main_v1).slice (win0_2.rect t)).set ↔ _
  rw [View.set_slice_whole, Rect.mem_set_unit]
  exact Iff.rfl

/-- Every element of the array is in the block of the point that works on its matrix. -/
theorem cover (i : S128x1024x1024.Idx) :
    ∃ t : Fin cfg0.N, (cfg0.win 2).flush t = true ∧ i ∈ ((cfg0.win 2).blk t).view.set := by
  have h0 : (i 0).val < 128 := (i 0).isLt
  have h1 : (i 1).val < 1024 := (i 1).isLt
  have h2 : (i 2).val < 1024 := (i 2).isLt
  have hN : cfg0.N = 64 := N_0
  refine ⟨⟨(i 0).val / 2, by omega⟩, flush0_2 _, ?_⟩
  rw [mem_blk]
  obtain ⟨-, -, -, -, -, -, e0, e1, e2⟩ := idx_facts ⟨(i 0).val / 2, by omega⟩
  intro a
  match a with
  | ⟨0, _⟩ =>
    show win0_2.index _ (0 : Fin 3) * 2 ≤ (i 0).val ∧ (i 0).val < win0_2.index _ (0 : Fin 3) * 2 + 2
    rw [e0]; show (i 0).val / 2 * 2 ≤ (i 0).val ∧ (i 0).val < (i 0).val / 2 * 2 + 2; omega
  | ⟨1, _⟩ =>
    show win0_2.index _ (1 : Fin 3) * 1024 ≤ (i 1).val ∧ (i 1).val < win0_2.index _ (1 : Fin 3) * 1024 + 1024
    rw [e1]; omega
  | ⟨2, _⟩ =>
    show win0_2.index _ (2 : Fin 3) * 1024 ≤ (i 2).val ∧ (i 2).val < win0_2.index _ (2 : Fin 3) * 1024 + 1024
    rw [e2]; omega

/-- The result array after the run. -/
theorem final (c : Dev nD) : (dats m 0 c).arrAt 2 cfg0.N
    = whole (m ((c : Thread nD τ).loc main_arg0)) (m ((c : Thread nD τ).loc main_arg1)) :=
  (dats m 0 c).arrAt_eq_of_cover 2 _ (fun t _ => flushed_eq m c t) cover

/-- The run: the result array at `whole` of the arguments, the arguments unchanged. -/
theorem run : θ_run defs (onTc (τ := τ) (main (F := F))) ⟨m, fun _ => 0, ρ⟩ fun r => ∀ c : Dev nD,
      r.2.mem ((c : Thread nD τ).loc main_v1) = whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Hand

end
-- ==== Proof.Reference.lean ====
/-
  The reference computes `whole`.

  Its twelve host operations, read at an index `(n, r, c)`: the matrix element times the constant 0.95; the vector
  spread along the columns, `h[n,r]`, times the vector spread along the rows, `h[n,c]`, times the constant 0.5;
  and their sum — `elt (A[n,r,c]) (h[n,r]) (h[n,c])`.
-/
import proofs.«102524_j25838523253087_2_alg».proof.Proof.Gen.ReferenceIdeal.Read
import proofs.«102524_j25838523253087_2_alg».proof.Proof.Spec

noncomputable section

namespace Cert.ReferenceIdeal.Hand

open Idealize.ShloMosaic Idealize.ShloMosaic.TcCoe Idealize.ShloMosaic.ValueIdx
open Cert.ReferenceIdeal Cert.ReferenceIdeal.Read Cert.Spec

variable {F : FTy → Type} [FloatOps F]

/-- The reference's result, as its last operation leaves it, is `whole` of the two arguments. -/
theorem result_eq (x0 : (⟨S128x1024x1024, .f32⟩ : BufTy).Contents (Elt F)) (x1 : (⟨S128x1024, .f32⟩ : BufTy).Contents (Elt F)) :
    val_main_v9 (F := F) x0 x1 = whole x0 x1 := by
  funext i
  obtain ⟨n, r, c, rfl⟩ : ∃ (n : Fin 128) (r c : Fin 1024), i = ix3 n r c := ⟨i 0, i 1, i 2, eq_ix3 i⟩
  rw [val_main_v9_apply, val_main_v1_apply, val_main_v0_apply, val_main_cst_apply, val_main_v8_apply, val_main_v6_apply,
    val_main_v4_apply, val_main_v2_apply, val_main_v5_apply, val_main_v3_apply, val_main_v7_apply, val_main_cst_0_apply,
    whole_apply]
  have e1 : idx_main_v2 (idx_main_v4 (ix3 n r c)) = ix2 n r :=
    funext fun a => Fin.ext (by match a with | ⟨0, _⟩ => rfl | ⟨1, _⟩ => rfl)
  have e2 : idx_main_v3 (idx_main_v5 (ix3 n r c)) = ix2 n c :=
    funext fun a => Fin.ext (by match a with | ⟨0, _⟩ => rfl | ⟨1, _⟩ => rfl)
  rw [e1, e2]
  rfl

end Cert.ReferenceIdeal.Hand

end
-- ==== Proof.lean ====
/-
  The certificate: the kernel, a batched rank-one update `A·0.95 + (h hᵀ)·0.5` of 128 matrices computed two matrices per
  grid point in bands of 256 rows, against the same expression written with broadcasts.

  Both programs compute, at every `(n, r, c)`, `A[n,r,c]·0.95 + (h[n,r]·h[n,c])·0.5` with the same two float constants and
  the same order of operations (Spec.lean: `whole`), so no law of arithmetic is needed and the precondition is never
  opened: the kernel's result array ends at `whole A h` (Value.lean, from the body's bands: Body.lean, Payload.lean,
  Bands.lean), and the reference's last operation leaves `whole A h` (Reference.lean). The three frames are the two
  kernels' frame runs (Run.lean, BitsRun.lean: the same text at the word level) and the reference's run with its
  result dropped; the idealization rewrote nothing, so `preserves` is trivial.
-/
import proofs.«102524_j25838523253087_2_alg».proof.Defs
import proofs.«102524_j25838523253087_2_alg».proof.Proof.Gen.Kernel
import proofs.«102524_j25838523253087_2_alg».proof.Proof.Gen.KernelIdeal
import proofs.«102524_j25838523253087_2_alg».proof.Proof.Gen.ReferenceIdeal
import proofs.«102524_j25838523253087_2_alg».proof.Proof.Gen.Pre_finite_inputs
import proofs.«102524_j25838523253087_2_alg».proof.Proof.BitsRun
import proofs.«102524_j25838523253087_2_alg».proof.Proof.Value
import proofs.«102524_j25838523253087_2_alg».proof.Proof.Reference
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with `whole A h` in their result arrays. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Hand.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
